-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x3072 : Shape := ⟨3, ![4, 2048, 3072]⟩
abbrev S6144x3072 : Shape := ⟨2, ![6144, 3072]⟩
abbrev S48x24 : Shape := ⟨2, ![48, 24]⟩
abbrev S_ : Shape := ⟨0, ![]⟩

class Facts : Prop where
  bcast_S_S4x2048x3072 : S_.BroadcastsInDim S4x2048x3072 (![] : Fin 0 → Fin S4x2048x3072.rank)
  reducesTo_S4x2048x3072_S_d0_1_2 : S4x2048x3072.ReducesTo [0, 1, 2] S_
  h_S_ : 0 < S_.numel
  bcast_S_S6144x3072 : S_.BroadcastsInDim S6144x3072 (![] : Fin 0 → Fin S6144x3072.rank)
  reducesTo_S6144x3072_S_d0_1 : S6144x3072.ReducesTo [0, 1] S_
  bcast_S_S48x24 : S_.BroadcastsInDim S48x24 (![] : Fin 0 → Fin S48x24.rank)
  reducesTo_S48x24_S_d0_1 : S48x24.ReducesTo [0, 1] S_

variable [Facts]

def fn {F : FTy → Type} [FloatOps F] (main_arg0 : FVec F S4x2048x3072 .f32) (main_arg1 : FVec F S6144x3072 .f32) (main_arg2 : FVec F S48x24 .f32) : IVec S_ 1 :=
  let main_v0 : FVec F S4x2048x3072 .f32 := Host.absf main_arg0
  let main_cst : FVec F S_ .f32 := constant S_ .f32 0x7F800000#32
  let main_v1 : FVec F S4x2048x3072 .f32 := broadcastInDim S4x2048x3072 ![] bcast_S_S4x2048x3072 main_cst
  let main_v2 : IVec S4x2048x3072 1 := cmpf .olt main_v0 main_v1
  let main_c : IVec S_ 1 := constantI S_ 1 1#1
  let main_v3 : IVec S_ 1 := (fun x v => Host.reduce IntOp.andi x v reducesTo_S4x2048x3072_S_d0_1_2 h_S_) main_v2 main_c
  let main_v4 : FVec F S6144x3072 .f32 := Host.absf main_arg1
  let main_cst_0 : FVec F S_ .f32 := constant S_ .f32 0x7F800000#32
  let main_v5 : FVec F S6144x3072 .f32 := broadcastInDim S6144x3072 ![] bcast_S_S6144x3072 main_cst_0
  let main_v6 : IVec S6144x3072 1 := cmpf .olt main_v4 main_v5
  let main_c_1 : IVec S_ 1 := constantI S_ 1 1#1
  let main_v7 : IVec S_ 1 := (fun x v => Host.reduce IntOp.andi x v reducesTo_S6144x3072_S_d0_1 h_S_) main_v6 main_c_1
  let main_v8 : IVec S_ 1 := andi main_v3 main_v7
  let main_v9 : FVec F S48x24 .f32 := Host.absf main_arg2
  let main_cst_2 : FVec F S_ .f32 := constant S_ .f32 0x7F800000#32
  let main_v10 : FVec F S48x24 .f32 := broadcastInDim S48x24 ![] bcast_S_S48x24 main_cst_2
  let main_v11 : IVec S48x24 1 := cmpf .olt main_v9 main_v10
  let main_c_3 : IVec S_ 1 := constantI S_ 1 1#1
  let main_v12 : IVec S_ 1 := (fun x v => Host.reduce IntOp.andi x v reducesTo_S48x24_S_d0_1 h_S_) main_v11 main_c_3
  let main_v13 : IVec S_ 1 := andi main_v8 main_v12
  main_v13
-- ==== Kernel.lean ====
abbrev S4x2048x3072 : Shape := ⟨3, ![4, 2048, 3072]⟩
abbrev S6144x3072 : Shape := ⟨2, ![6144, 3072]⟩
abbrev S48x24 : Shape := ⟨2, ![48, 24]⟩
abbrev S48x128x24x128 : Shape := ⟨4, ![48, 128, 24, 128]⟩
abbrev S48x1x24x1 : Shape := ⟨4, ![48, 1, 24, 1]⟩
abbrev S8192x3072 : Shape := ⟨2, ![8192, 3072]⟩
abbrev S8192x6144 : Shape := ⟨2, ![8192, 6144]⟩
abbrev S512x3072 : Shape := ⟨2, ![512, 3072]⟩
abbrev S1024x3072 : Shape := ⟨2, ![1024, 3072]⟩
abbrev S512x1024 : Shape := ⟨2, ![512, 1024]⟩
abbrev S4x2048x6144 : Shape := ⟨3, ![4, 2048, 6144]⟩

abbrev nBuf : Space → Nat
  | .hbm => 12
  | .vmem => 7
  | .smem => 0
  | _ => 0

abbrev bufTy : (tb : Table) → Fin (tcTables nBuf tb) → BufTy
  | .hbm, ⟨0, _⟩ => ⟨S4x2048x3072, .f32⟩
  | .hbm, ⟨1, _⟩ => ⟨S6144x3072, .f32⟩
  | .hbm, ⟨2, _⟩ => ⟨S48x24, .f32⟩
  | .hbm, ⟨3, _⟩ => ⟨S48x128x24x128, .f32⟩
  | .hbm, ⟨4, _⟩ => ⟨S48x1x24x1, .f32⟩
  | .hbm, ⟨5, _⟩ => ⟨S48x128x24x128, .f32⟩
  | .hbm, ⟨6, _⟩ => ⟨S48x128x24x128, .f32⟩
  | .hbm, ⟨7, _⟩ => ⟨S6144x3072, .f32⟩
  | .hbm, ⟨8, _⟩ => ⟨S6144x3072, .bf16⟩
  | .hbm, ⟨9, _⟩ => ⟨S8192x3072, .f32⟩
  | .hbm, ⟨10, _⟩ => ⟨S8192x6144, .f32⟩
  | .hbm, ⟨11, _⟩ => ⟨S4x2048x6144, .f32⟩
  | .local _ .vmem, ⟨0, _⟩ => ⟨S512x3072, .f32⟩
  | .local _ .vmem, ⟨1, _⟩ => ⟨S512x3072, .f32⟩
  | .local _ .vmem, ⟨2, _⟩ => ⟨S1024x3072, .bf16⟩
  | .local _ .vmem, ⟨3, _⟩ => ⟨S1024x3072, .bf16⟩
  | .local _ .vmem, ⟨4, _⟩ => ⟨S512x1024, .f32⟩
  | .local _ .vmem, ⟨5, _⟩ => ⟨S512x1024, .f32⟩
  | .local _ .vmem, ⟨6, _⟩ => ⟨S512x3072, .bf16⟩
  | _, _ => ⟨S4x2048x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x3072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x3072 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  shapeCasts_S6144x3072_S48x128x24x128 : S6144x3072.ShapeCasts S48x128x24x128
  bcast_S48x24_S48x1x24x1_0_2 : S48x24.BroadcastsInDim S48x1x24x1 (![0, 2] : Fin 2 → Fin S48x1x24x1.rank)
  bcast_S48x1x24x1_S48x128x24x128_0_1_2_3 : S48x1x24x1.BroadcastsInDim S48x128x24x128 (![0, 1, 2, 3] : Fin 4 → Fin S48x128x24x128.rank)
  shapeCasts_S48x128x24x128_S6144x3072 : S48x128x24x128.ShapeCasts S6144x3072
  bitsLt_bf16_f32 : FTy.bits .bf16 < FTy.bits .f32
  shapeCasts_S4x2048x3072_S8192x3072 : S4x2048x3072.ShapeCasts S8192x3072
  inb_S512x3072_S512x3072_0_0 : ∀ a, (![0, 0] : Fin 2 → Nat) a + S512x3072.size a ≤ S512x3072.size a
  h_S512x3072 : 0 < S512x3072.numel
  shapeCasts_S512x3072_S512x3072 : S512x3072.ShapeCasts S512x3072
  packedbf16_S512x3072_S512x3072_0_0 : (Rect.unit (s := S512x3072) ![0, 0] S512x3072.size inb_S512x3072_S512x3072_0_0).PackedRows (EltTy.packing .bf16)
  inb_S1024x3072_S1024x3072_0_0 : ∀ a, (![0, 0] : Fin 2 → Nat) a + S1024x3072.size a ≤ S1024x3072.size a
  h_S1024x3072 : 0 < S1024x3072.numel
  shapeCasts_S1024x3072_S1024x3072 : S1024x3072.ShapeCasts S1024x3072
  inb_S512x1024_S512x1024_0_0 : ∀ a, (![0, 0] : Fin 2 → Nat) a + S512x1024.size a ≤ S512x1024.size a
  h_S512x1024 : 0 < S512x1024.numel
  shapeCasts_S8192x6144_S4x2048x6144 : S8192x6144.ShapeCasts S4x2048x6144
  dot_S512x3072_S1024x3072_S512x1024_1_1_0_0_n_n_wf : DotDims.WF S512x3072 S1024x3072 S512x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x3072.size a ≤ S8192x3072.size a
  hwx0_0 : ∀ i : grid0.Coords, EltTy.bits .f32 = 32 ∨ (Rect.block (s := S8192x3072) S512x3072.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x3072.size a ≤ S6144x3072.size a
  hwx0_1 : ∀ i : grid0.Coords, EltTy.bits .bf16 = 32 ∨ (Rect.block (s := S6144x3072) S1024x3072.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S8192x6144.size a
  hwx0_2 : ∀ i : grid0.Coords, EltTy.bits .f32 = 32 ∨ (Rect.block (s := S8192x6144) S512x1024.size (cc0_transform_2 i) (hinb0_2 i)).WholeWords (EltTy.packing .f32)

variable [Facts₀]

def dot_S512x3072_S1024x3072_S512x1024_1_1_0_0_n_n : DotDims S512x3072 S1024x3072 S512x1024 where
  lhsContracting := [1]
  rhsContracting := [1]
  lhsNonContracting := [0]
  rhsNonContracting := [0]
  lhsBatch := []
  rhsBatch := []
  wf := dot_S512x3072_S1024x3072_S512x1024_1_1_0_0_n_n_wf

abbrev win0_0 : Pipeline.Window sig grid0 :=
  Pipeline.Window.ofSpec (Memref.whole main_v6) S512x3072.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S1024x3072.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7) S512x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4x2048x3072 : Shape := ⟨3, ![4, 2048, 3072]⟩
abbrev S6144x3072 : Shape := ⟨2, ![6144, 3072]⟩
abbrev S48x24 : Shape := ⟨2, ![48, 24]⟩
abbrev S48x128x24x128 : Shape := ⟨4, ![48, 128, 24, 128]⟩
abbrev S48x1x24x1 : Shape := ⟨4, ![48, 1, 24, 1]⟩
abbrev S4x2048x6144 : Shape := ⟨3, ![4, 2048, 6144]⟩

abbrev nBuf : Space → Nat
  | .hbm => 9
  | .vmem => 0
  | .smem => 0
  | _ => 0

abbrev bufTy : (tb : Table) → Fin (tcTables nBuf tb) → BufTy
  | .hbm, ⟨0, _⟩ => ⟨S4x2048x3072, .f32⟩
  | .hbm, ⟨1, _⟩ => ⟨S6144x3072, .f32⟩
  | .hbm, ⟨2, _⟩ => ⟨S48x24, .f32⟩
  | .hbm, ⟨3, _⟩ => ⟨S48x128x24x128, .f32⟩
  | .hbm, ⟨4, _⟩ => ⟨S48x1x24x1, .f32⟩
  | .hbm, ⟨5, _⟩ => ⟨S48x128x24x128, .f32⟩
  | .hbm, ⟨6, _⟩ => ⟨S48x128x24x128, .f32⟩
  | .hbm, ⟨7, _⟩ => ⟨S6144x3072, .f32⟩
  | .hbm, ⟨8, _⟩ => ⟨S4x2048x6144, .f32⟩
  | _, _ => ⟨S4x2048x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]

class Facts₀ : Prop where
  shapeCasts_S6144x3072_S48x128x24x128 : S6144x3072.ShapeCasts S48x128x24x128
  bcast_S48x24_S48x1x24x1_0_2 : S48x24.BroadcastsInDim S48x1x24x1 (![0, 2] : Fin 2 → Fin S48x1x24x1.rank)
  bcast_S48x1x24x1_S48x128x24x128_0_1_2_3 : S48x1x24x1.BroadcastsInDim S48x128x24x128 (![0, 1, 2, 3] : Fin 4 → Fin S48x128x24x128.rank)
  shapeCasts_S48x128x24x128_S6144x3072 : S48x128x24x128.ShapeCasts S6144x3072
  dot_S4x2048x3072_S6144x3072_S4x2048x6144_2_1_01_0_n_n_wf : DotDims.WF S4x2048x3072 S6144x3072 S4x2048x6144 [2] [1] [0, 1] [0] [] []

variable [Facts₀]

def dot_S4x2048x3072_S6144x3072_S4x2048x6144_2_1_01_0_n_n : DotDims S4x2048x3072 S6144x3072 S4x2048x6144 where
  lhsContracting := [2]
  rhsContracting := [1]
  lhsNonContracting := [0, 1]
  rhsNonContracting := [0]
  lhsBatch := []
  rhsBatch := []
  wf := dot_S4x2048x3072_S6144x3072_S4x2048x6144_2_1_01_0_n_n_wf

class Facts : Prop extends Facts₀ where

variable [Facts]
-- ==== Proof.Spec.lean ====
/-
  The specification both programs meet, over the extended reals: a linear layer without bias,

      out[b, s, n] = ∑ₖ x[b, s, k] · W[n, k]          (b < 4, s < 2048, n < 6144, k < 3072),

  and the same map written on the 8192 = 4 · 2048 rows r = 2048·b + s of x laid out as a matrix,

      Y[r, n] = ∑ₖ X[r, k] · W[n, k].

  Re-laying x [4, 2048, 3072] as X [8192, 3072] and Y [8192, 6144] as out [4, 2048, 6144] moves no entry
  (row-major positions are kept), so the second form re-laid is the first (`reshape_rowsLinear`). Each entry
  is one sum over k in one order on both sides: no law of the extended reals beyond equality of the summands
  is used, so no finiteness of the inputs is needed.
-/
import Idealize.ShloMosaic.PureOps.Ideal
import Idealize.ShloMosaic.Lib.ValueIdx
import Idealize.ShloMosaic.Lib.Pipeline.Value

noncomputable section

namespace Cert.Spec

open Idealize.ShloMosaic Idealize.ShloMosaic.ValueIdx

/-- The input x, the weight W, the output, and the row-matrix forms of input and output. -/
abbrev SIn : Shape := ⟨3, ![4, 2048, 3072]⟩
abbrev SWt : Shape := ⟨2, ![6144, 3072]⟩
abbrev SOut : Shape := ⟨3, ![4, 2048, 6144]⟩
abbrev SInRows : Shape := ⟨2, ![8192, 3072]⟩
abbrev SOutRows : Shape := ⟨2, ![8192, 6144]⟩

/-- out[b, s, n] = ∑ₖ x[b, s, k] · W[n, k]. -/
def linear (x : SIn.Idx → EReal) (W : SWt.Idx → EReal) : SOut.Idx → EReal := fun i =>
  ∑ k : Fin 3072, x (ix3 (⟨(i 0).val, (i 0).isLt⟩ : Fin 4) (⟨(i 1).val, (i 1).isLt⟩ : Fin 2048) k)
    * W (ix2 (⟨(i 2).val, (i 2).isLt⟩ : Fin 6144) k)

/-- Y[r, n] = ∑ₖ X[r, k] · W[n, k]. -/
def rowsLinear (X : SInRows.Idx → EReal) (W : SWt.Idx → EReal) : SOutRows.Idx → EReal := fun j =>
  ∑ k : Fin 3072, X (ix2 (⟨(j 0).val, (j 0).isLt⟩ : Fin 8192) k) * W (ix2 (⟨(j 1).val, (j 1).isLt⟩ : Fin 6144) k)

/-- Row r = 2048·b + s of the matrix form is row (b, s) of x; so the matrix form of the layer, re-laid as
    [4, 2048, 6144], is the layer. -/
theorem reshape_rowsLinear (x : SIn.Idx → EReal) (W : SWt.Idx → EReal) (h1 : SIn.ShapeCasts SInRows)
    (h2 : SOutRows.ShapeCasts SOut) :
    shapeCast SOut (rowsLinear (shapeCast SInRows x h1) W) h2 = linear x W := by
  funext i
  have h0 : (i 0).val < 4 := (i 0).isLt
  have h1' : (i 1).val < 2048 := (i 1).isLt
  have h2' : (i 2).val < 6144 := (i 2).isLt
  have hr : (i 0).val * 2048 + (i 1).val < 8192 := by omega
  rw [shapeCast_apply (rowsLinear (shapeCast SInRows x h1) W) h2 i
    (ix2 (⟨(i 0).val * 2048 + (i 1).val, hr⟩ : Fin 8192) (⟨(i 2).val, h2'⟩ : Fin 6144))
    (by rewrite [Shape.rowMajor_val_two, Shape.rowMajor_val_three]
        show ((i 0).val * 2048 + (i 1).val) * 6144 + (i 2).val = ((i 0).val * 2048 + (i 1).val) * 6144 + (i 2).val
        rfl)]
  unfold rowsLinear linear
  refine Finset.sum_congr rfl fun k _ => ?_
  refine congrArg (· * _) ?_
  exact shapeCast_apply x h1 _ (ix3 (⟨(i 0).val, h0⟩ : Fin 4) (⟨(i 1).val, h1'⟩ : Fin 2048) k)
    (by rewrite [Shape.rowMajor_val_three, Shape.rowMajor_val_two]
        show ((i 0).val * 2048 + (i 1).val) * 3072 + k.val = ((i 0).val * 2048 + (i 1).val) * 3072 + k.val
        rfl)

end Cert.Spec

end
-- ==== Proof.RefRead.lean ====
/-
  The reference, read at an index: jnp's einsum "bsk,nk->bsn" is a dot_general contracting the last axis of x
  with the last axis of the dequantized weight W', so at the exact reals its entry (b, s, n) is
  ∑ₖ x[b, s, k] · W'[n, k] — the specification's linear layer applied to x and W'. W' itself (the weight re-laid
  in 128 × 128 blocks, each block times its scale, re-laid back) is the same operations on both sides, so the
  comparison carries it as one term; `dequant_apply` reads it entry by entry all the same:
  W'[n, k] = w[n, k] · scale[n / 128, k / 128].
-/
import proofs.«101231_j46617575031313_2_alg».proof.Proof.Gen.ReferenceIdeal.Read
import proofs.«101231_j46617575031313_2_alg».proof.Proof.Spec
import Idealize.ShloMosaic.Lib.ValueIdx
import Idealize.ShloMosaic.PureOps.Ideal.Laws

noncomputable section

namespace Cert.RefRead

open Cert.ReferenceIdeal Cert.ReferenceIdeal.Read Idealize.ShloMosaic Idealize.ShloMosaic.ValueIdx

/-- The reference's result is the linear layer of x and the dequantized weight. -/
theorem reference_eq (x0 : (⟨S4x2048x3072, .f32⟩ : BufTy).Contents (Elt Ideal))
    (x1 : (⟨S6144x3072, .f32⟩ : BufTy).Contents (Elt Ideal)) (x2 : (⟨S48x24, .f32⟩ : BufTy).Contents (Elt Ideal)) :
    val_main_v5 (F := Ideal) x0 x1 x2 = Cert.Spec.linear x0 (val_main_v4 (F := Ideal) x1 x2) := by
  funext i
  rw [val_main_v5_apply]
  unfold Cert.Spec.linear
  refine Finset.sum_congr rfl fun k _ => ?_
  have el : lidx_main_v5 i k
      = ix3 (⟨(i 0).val, (i 0).isLt⟩ : Fin 4) (⟨(i 1).val, (i 1).isLt⟩ : Fin 2048) k :=
    funext fun a => by match a with | ⟨0, _⟩ => rfl | ⟨1, _⟩ => rfl | ⟨2, _⟩ => rfl
  have er : ridx_main_v5 i k = ix2 (⟨(i 2).val, (i 2).isLt⟩ : Fin 6144) k :=
    funext fun a => by match a with | ⟨0, _⟩ => rfl | ⟨1, _⟩ => rfl
  rw [el, er]

/-- The dequantized weight, entry by entry: the re-lay of [6144, 3072] as [48, 128, 24, 128] puts entry (n, k) in
    block (n / 128, k / 128), the scale of that block is repeated over the block, and the re-lay back returns to
    (n, k) — so W'[n, k] = w[n, k] · scale[n / 128, k / 128]. -/
theorem dequant_apply (x1 : (⟨S6144x3072, .f32⟩ : BufTy).Contents (Elt Ideal)) (x2 : (⟨S48x24, .f32⟩ : BufTy).Contents (Elt Ideal))
    (n : Fin 6144) (k : Fin 3072) :
    val_main_v4 (F := Ideal) x1 x2 (ix2 n k)
      = x1 (ix2 n k) * x2 (ix2 (⟨n.val / 128, by have := n.isLt; omega⟩ : Fin 48) (⟨k.val / 128, by have := k.isLt; omega⟩ : Fin 24)) := by
  have hn := n.isLt
  have hk := k.isLt
  rw [val_main_v4_apply, val_main_v3_apply, val_main_v0_apply, val_main_v2_apply, val_main_v1_apply]
  have e1 : idx_main_v0 (idx_main_v4 (ix2 n k)) = ix2 n k := funext fun a => Fin.ext (by
    match a with
    | ⟨0, _⟩ => show ((((n.val * 3072 + k.val) / 393216 * 128 + (n.val * 3072 + k.val) / 3072 % 128) * 24 + (n.val * 3072 + k.val) / 128 % 24) * 128 + (n.val * 3072 + k.val) % 128) / 3072 = n.val; omega
    | ⟨1, _⟩ => show ((((n.val * 3072 + k.val) / 393216 * 128 + (n.val * 3072 + k.val) / 3072 % 128) * 24 + (n.val * 3072 + k.val) / 128 % 24) * 128 + (n.val * 3072 + k.val) % 128) % 3072 = k.val; omega)
  have e2 : idx_main_v1 (idx_main_v2 (idx_main_v4 (ix2 n k)))
      = ix2 (⟨n.val / 128, by omega⟩ : Fin 48) (⟨k.val / 128, by omega⟩ : Fin 24) := funext fun a => Fin.ext (by
    match a with
    | ⟨0, _⟩ => show (n.val * 3072 + k.val) / 393216 = n.val / 128; omega
    | ⟨1, _⟩ => show (n.val * 3072 + k.val) / 128 % 24 = k.val / 128; omega)
  rw [e1, e2]
  rfl

end Cert.RefRead

end
-- ==== Proof.KernelBody.lean ====
/-
  What one run of the kernel body leaves, as values of what it found in its buffers.

  The body keeps a copy of the current row block of x in a scratch buffer: when the column-tile coordinate is 0
  (case A) it writes the block there, rounded to the matmul's operand format, and otherwise (case B) the scratch
  still holds what an earlier point wrote. Then, in both cases, it multiplies the scratch with the current row block
  of the weight, contracting the last axis of both, and stores the product as its output block. So with x₀ the x
  block, x₁ the weight block and s the scratch as the point found it:

      case A:  scratch := round x₀,   output := round x₀ ·ₖ x₁
      case B:  scratch unchanged,     output := s ·ₖ x₁

  Every load and store is of a whole buffer, so each store leaves exactly its payload and each load reads exactly
  the contents.
-/
import proofs.«101231_j46617575031313_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Body

open Cert.KernelIdeal Cert.KernelIdeal.Gen

variable {F : FTy → Type} [FloatOps F]

/-- The whole-buffer rectangle starts at the origin. -/
theorem origin : (![0, 0] : Fin 2 → Nat) = fun _ => 0 := funext fun a => by fin_cases a <;> rfl

/-- Case A leaves in the scratch the rounded x block. -/
theorem scratch_A (c : Dev nD) (i : grid0.Coords) (a2 : Memref sig .tc .vmem S512x3072 .f32) (h2 : a2.IsWhole)
    (a3 : Memref sig .tc .vmem S1024x3072 .bf16) (h3 : a3.IsWhole) (a4 : Memref sig .tc .vmem S512x1024 .f32) (h4 : a4.IsWhole)
    (a5 : Memref sig .tc .vmem S512x3072 .bf16) (h5 : a5.IsWhole) (hc : cond0_0 i)
    (x0 : Vec F S512x3072 .f32) (x1 : Vec F S1024x3072 .bf16) :
    sout0_A_0 c i a2 h2 a3 h3 a4 h4 a5 h5 hc x0 x1 = k0_pay1 x0 := by
  unfold sout0_A_0
  rw [View.read_writes_eq_canon _ _ _ (scover0_A_0 c i a2 h2 a3 h3 a4 h4 a5 h5 hc x0 x1)]
  unfold kernelRun0_A
  dsimp only
  sl_unfold_words
  rw [View.canon_unit_zero origin]
  simp only [View.readAt_eq_ld, h2.read_unread, View.ld_unit_zero (S := S512x3072) origin]

/-- Case A leaves in the output block the product of the rounded x block, read back from the scratch, with the
    weight block. -/
theorem out_A (c : Dev nD) (i : grid0.Coords) (a2 : Memref sig .tc .vmem S512x3072 .f32) (h2 : a2.IsWhole)
    (a3 : Memref sig .tc .vmem S1024x3072 .bf16) (h3 : a3.IsWhole) (a4 : Memref sig .tc .vmem S512x1024 .f32) (h4 : a4.IsWhole)
    (a5 : Memref sig .tc .vmem S512x3072 .bf16) (h5 : a5.IsWhole) (hc : cond0_0 i)
    (x0 : Vec F S512x3072 .f32) (x1 : Vec F S1024x3072 .bf16) :
    out0_A_2 c i a2 h2 a3 h3 a4 h4 a5 h5 hc x0 x1 = k0_pay2 (k0_pay1 x0) x1 := by
  unfold out0_A_2
  rw [View.read_writes_eq_canon _ _ _ (cover0_A_2 c i a2 h2 a3 h3 a4 h4 a5 h5 hc x0 x1)]
  unfold kernelRun0_A
  dsimp only
  sl_unfold_words
  rw [View.canon_unit_zero (S := S512x1024) origin, View.readCov_unit_zero (S := S512x3072) _ origin]
  simp only [View.readAt_eq_ld, h2.read_unread, h3.read_unread, View.ld_unit_zero (S := S512x3072) origin,
    View.ld_unit_zero (S := S1024x3072) origin]

/-- Case B leaves in the output block the product of the scratch as found with the weight block. -/
theorem out_B (c : Dev nD) (i : grid0.Coords) (a2 : Memref sig .tc .vmem S512x3072 .f32) (h2 : a2.IsWhole)
    (a3 : Memref sig .tc .vmem S1024x3072 .bf16) (h3 : a3.IsWhole) (a4 : Memref sig .tc .vmem S512x1024 .f32) (h4 : a4.IsWhole)
    (a5 : Memref sig .tc .vmem S512x3072 .bf16) (h5 : a5.IsWhole) (hc : ¬cond0_0 i)
    (x0 : Vec F S512x3072 .f32) (x1 : Vec F S1024x3072 .bf16) (xs0 : Vec F S512x3072 .bf16) :
    out0_B_2 c i a2 h2 a3 h3 a4 h4 a5 h5 hc x0 x1 xs0 = k0_pay2 xs0 x1 := by
  unfold out0_B_2
  rw [View.read_writes_eq_canon _ _ _ (cover0_B_2 c i a2 h2 a3 h3 a4 h4 a5 h5 hc x0 x1 xs0)]
  unfold kernelRun0_B
  dsimp only
  sl_unfold_words
  rw [View.canon_unit_zero (S := S512x1024) origin]
  simp only [View.readAt_eq_ld, h5.read_unread, h3.read_unread, View.ld_unit_zero (S := S512x3072) origin,
    View.ld_unit_zero (S := S1024x3072) origin]

end Cert.KernelIdeal.Body

end
-- ==== Proof.KernelBlocks.lean ====
/-
  The grid and its blocks. The 96 grid points are the pairs (i, j), i < 16 a tile of 512 rows of X, j < 6 a tile of
  1024 rows of the weight (= 1024 columns of the output), in the order t = 6·i + j (j fastest). At point t

      the X window holds rows 512·i … 512·i + 511 of X            (it does not depend on j),
      the weight window holds rows 1024·j … 1024·j + 1023 of W,
      the output window is the block (i, j) of the output: rows 512·i …, columns 1024·j ….

  Each block is read off its array at block index × block size + the coordinate inside the block. The output
  blocks tile the [8192, 6144] output: entry (r, n) lies in the block of the point 6·(r / 512) + n / 1024.
-/
import proofs.«101231_j46617575031313_2_alg».proof.Proof.Gen.KernelIdeal.Frame
import Idealize.ShloMosaic.Lib.Pipeline.Value
import Idealize.ShloMosaic.Lib.ValueIdx

noncomputable section

open Idealize.ShloMosaic Idealize.ShloMosaic.TcCoe Idealize.SL.Sem Idealize.ShloMosaic.ValueIdx
open Idealize.ShloMosaic.Pipeline (Dat)

namespace Cert.KernelIdeal.Blocks

open Cert.KernelIdeal Cert.KernelIdeal.Gen

/-! ## Tiles of a matrix, as functions of the entry inside the tile -/

/-- Rows 512·i … 512·i + 511 of a [8192, 3072] matrix. -/
def xRows {α : Type} (X : S8192x3072.Idx → α) (i : Fin 16) : S512x3072.Idx → α := fun y =>
  X (ix2 (⟨i.val * 512 + (y 0).val, by have := i.isLt; have h : (y 0).val < 512 := (y 0).isLt; omega⟩ : Fin 8192)
    (⟨(y 1).val, (y 1).isLt⟩ : Fin 3072))

/-- Rows 1024·j … 1024·j + 1023 of a [6144, 3072] matrix. -/
def wRows {α : Type} (W : S6144x3072.Idx → α) (j : Fin 6) : S1024x3072.Idx → α := fun y =>
  W (ix2 (⟨j.val * 1024 + (y 0).val, by have := j.isLt; have h : (y 0).val < 1024 := (y 0).isLt; omega⟩ : Fin 6144)
    (⟨(y 1).val, (y 1).isLt⟩ : Fin 3072))

/-- The block (i, j) of a [8192, 6144] matrix: rows 512·i …, columns 1024·j …. -/
def tile {α : Type} (Y : S8192x6144.Idx → α) (i : Fin 16) (j : Fin 6) : S512x1024.Idx → α := fun y =>
  Y (ix2 (⟨i.val * 512 + (y 0).val, by have := i.isLt; have h : (y 0).val < 512 := (y 0).isLt; omega⟩ : Fin 8192)
    (⟨j.val * 1024 + (y 1).val, by have := j.isLt; have h : (y 1).val < 1024 := (y 1).isLt; omega⟩ : Fin 6144))

/-! ## The grid point's two coordinates -/

theorem N96 : cfg0.N = 96 := N_0

/-- The row-tile coordinate of point t. -/
def rowTile (t : Fin cfg0.N) : Fin 16 := ⟨t.val / 6, by have h : t.val < 96 := lt_of_lt_of_eq t.isLt N96; omega⟩
/-- The column-tile coordinate of point t. -/
def colTile (t : Fin cfg0.N) : Fin 6 := ⟨t.val % 6, Nat.mod_lt _ (by decide)⟩

/-- The printed index maps, decided once over the 96 points: window 0 moves with i only, window 1 with j only,
    window 2 with both. -/
theorem idx_facts : ∀ t : Fin cfg0.N,
    win0_0.index t (0 : Fin 2) = t.val / 6 ∧ win0_0.index t (1 : Fin 2) = 0
    ∧ win0_1.index t (0 : Fin 2) = t.val % 6 ∧ win0_1.index t (1 : Fin 2) = 0
    ∧ win0_2.index t (0 : Fin 2) = t.val / 6 ∧ win0_2.index t (1 : Fin 2) = t.val % 6 :=
  (by decide +kernel : ∀ t : Fin grid0.N, _)

variable {F : FTy → Type} [FloatOps F]
variable (m : (ℓ : Loc nD τ sig) → Buf (Elt F) ℓ)

/-! ## The input blocks -/

/-- The X window's block at point t is row tile t / 6 of X as the region finds it. -/
theorem iblk0_eq (c : Dev nD) (t : Fin cfg0.N) :
    (iblk m c 0 t : Vec F S512x3072 .f32) = xRows (V m c main_v6) (rowTile t) := by
  obtain ⟨e0, e1, -⟩ := idx_facts t
  funext y
  unfold iblk xRows
  rw [View.read_apply]
  show V m c main_v6 _ = V m c main_v6 _
  refine congrArg (V m c main_v6) ?_
  funext a
  apply Fin.ext
  match a with
  | ⟨0, _⟩ => show win0_0.index t (0 : Fin 2) * 512 + 1 * (y 0).val = t.val / 6 * 512 + (y 0).val; rw [e0]; omega
  | ⟨1, _⟩ => show win0_0.index t (1 : Fin 2) * 3072 + 1 * (y 1).val = (y 1).val; rw [e1]; omega

/-- The weight window's block at point t is row tile t % 6 of the weight as the region finds it. -/
theorem iblk1_eq (c : Dev nD) (t : Fin cfg0.N) :
    (iblk m c 1 t : Vec F S1024x3072 .bf16) = wRows (V m c main_v5) (colTile t) := by
  obtain ⟨-, -, e0, e1, -⟩ := idx_facts t
  funext y
  unfold iblk wRows
  rw [View.read_apply]
  show V m c main_v5 _ = V m c main_v5 _
  refine congrArg (V m c main_v5) ?_
  funext a
  apply Fin.ext
  match a with
  | ⟨0, _⟩ => show win0_1.index t (0 : Fin 2) * 1024 + 1 * (y 0).val = t.val % 6 * 1024 + (y 0).val; rw [e0]; omega
  | ⟨1, _⟩ => show win0_1.index t (1 : Fin 2) * 3072 + 1 * (y 1).val = (y 1).val; rw [e1]; omega

/-! ## The output blocks -/

/-- Reading the output window's block at point t off any contents of the output array gives its tile (t / 6, t % 6). -/
theorem blk2_read (c : Dev nD) (t : Fin cfg0.N) (Y : Buf (Elt F) ((c : Thread nD τ).loc main_v7)) :
    (((cfg0.win 2).blk t).view.read (Elt F) Y : Vec F S512x1024 .f32) = tile Y (rowTile t) (colTile t) := by
  obtain ⟨-, -, -, -, e0, e1⟩ := idx_facts t
  funext y
  unfold tile
  rw [View.read_apply]
  refine congrArg Y ?_
  funext a
  apply Fin.ext
  match a with
  | ⟨0, _⟩ => show win0_2.index t (0 : Fin 2) * 512 + 1 * (y 0).val = t.val / 6 * 512 + (y 0).val; rw [e0]; omega
  | ⟨1, _⟩ => show win0_2.index t (1 : Fin 2) * 1024 + 1 * (y 1).val = t.val % 6 * 1024 + (y 1).val; rw [e1]; omega

/-- An entry of the output array is in point t's block iff each coordinate is in the block's range on its axis. -/
theorem mem_blk2 (t : Fin cfg0.N) (i : S8192x6144.Idx) :
    i ∈ ((cfg0.win 2).blk t).view.set ↔ ∀ a : Fin 2, win0_2.index t a * S512x1024.size a ≤ (i a).val
      ∧ (i a).val < win0_2.index t a * S512x1024.size a + S512x1024.size a := by
  show i ∈ ((View.whole main_v7).slice (win0_2.rect t)).set ↔ _
  rw [View.set_slice_whole, Rect.mem_set_unit]
  exact Iff.rfl

/-- The output blocks tile the output: entry (r, n) is in the block of point 6·(r / 512) + n / 1024, and every
    point writes its block back. -/
theorem cover2 (i : S8192x6144.Idx) :
    ∃ t : Fin cfg0.N, (cfg0.win 2).flush t = true ∧ i ∈ ((cfg0.win 2).blk t).view.set := by
  have h0 : (i 0).val < 8192 := (i 0).isLt
  have h1 : (i 1).val < 6144 := (i 1).isLt
  have ht : (i 0).val / 512 * 6 + (i 1).val / 1024 < cfg0.N := by rw [N96]; omega
  refine ⟨⟨(i 0).val / 512 * 6 + (i 1).val / 1024, ht⟩, flush0_2 _, ?_⟩
  obtain ⟨-, -, -, -, e0, e1⟩ := idx_facts ⟨(i 0).val / 512 * 6 + (i 1).val / 1024, ht⟩
  rw [mem_blk2]
  intro a
  match a with
  | ⟨0, _⟩ =>
    show win0_2.index _ (0 : Fin 2) * 512 ≤ (i 0).val ∧ (i 0).val < win0_2.index _ (0 : Fin 2) * 512 + 512
    rw [e0]; dsimp only; omega
  | ⟨1, _⟩ =>
    show win0_2.index _ (1 : Fin 2) * 1024 ≤ (i 1).val ∧ (i 1).val < win0_2.index _ (1 : Fin 2) * 1024 + 1024
    rw [e1]; dsimp only; omega

end Cert.KernelIdeal.Blocks

end
-- ==== Proof.KernelPayload.lean ====
/-
  The body's two payloads over the exact reals, entry by entry.

  Rounding to the matmul's operand format changes no value there, and a re-lay to the same shape moves nothing,
  so the scratch payload is the x block itself. The output payload is a matrix product accumulated into the zero
  block, contracting axis 1 of both operands: its entry (p, q) is ∑ₖ a[p, k] · b[q, k] over the 3072 values of k.
-/
import proofs.«101231_j46617575031313_2_alg».proof.Proof.Gen.KernelIdeal.Skeleton
import Idealize.ShloMosaic.Lib.Pipeline.Value
import Idealize.ShloMosaic.Lib.ValueIdx
import Idealize.ShloMosaic.PureOps.Ideal.Laws

noncomputable section

open Idealize.ShloMosaic Idealize.ShloMosaic.ValueIdx

namespace Cert.KernelIdeal.Payload

open Cert.KernelIdeal Cert.KernelIdeal.Gen

/-- The scratch payload is the block it is given: rounding is the identity on exact values. -/
theorem pay1_apply (v8 : Vec Ideal S512x3072 .f32) (y : S512x3072.Idx) :
    (k0_pay1 (F := Ideal) v8 y : EReal) = v8 y := by
  unfold k0_pay1
  simp only [shapeCast_self]
  rfl

/-! The operand indices of the body's product at output entry `j` and contraction index `u`: the left operand is
    read at (j₀, u), the right at (j₁, u) — axis 1 of both is the contracted one. -/

theorem lhs_0 (j : S512x1024.Idx) (u : dot_S512x3072_S1024x3072_S512x1024_1_1_0_0_n_n.contr.Idx) :
    (dot_S512x3072_S1024x3072_S512x1024_1_1_0_0_n_n.lhsIdx j u 0).val = (j 0).val := by
  unfold DotDims.lhsIdx
  rw [dif_neg (show ¬(0 : Fin S512x3072.rank) ∈ dot_S512x3072_S1024x3072_S512x1024_1_1_0_0_n_n.lhsBatch by decide),
    dif_pos (show (0 : Fin S512x3072.rank) ∈ dot_S512x3072_S1024x3072_S512x1024_1_1_0_0_n_n.lhsNonContracting by decide)]
  rfl

theorem lhs_1 (j : S512x1024.Idx) (u : dot_S512x3072_S1024x3072_S512x1024_1_1_0_0_n_n.contr.Idx) :
    (dot_S512x3072_S1024x3072_S512x1024_1_1_0_0_n_n.lhsIdx j u 1).val = (u ⟨0, by decide⟩).val :=
  dot_S512x3072_S1024x3072_S512x1024_1_1_0_0_n_n.lhsIdx_val_of_single rfl j u

theorem rhs_0 (j : S512x1024.Idx) (u : dot_S512x3072_S1024x3072_S512x1024_1_1_0_0_n_n.contr.Idx) :
    (dot_S512x3072_S1024x3072_S512x1024_1_1_0_0_n_n.rhsIdx j u 0).val = (j 1).val := by
  unfold DotDims.rhsIdx
  rw [dif_neg (show ¬(0 : Fin S1024x3072.rank) ∈ dot_S512x3072_S1024x3072_S512x1024_1_1_0_0_n_n.rhsBatch by decide),
    dif_pos (show (0 : Fin S1024x3072.rank) ∈ dot_S512x3072_S1024x3072_S512x1024_1_1_0_0_n_n.rhsNonContracting by decide)]
  rfl

theorem rhs_1 (j : S512x1024.Idx) (u : dot_S512x3072_S1024x3072_S512x1024_1_1_0_0_n_n.contr.Idx) :
    (dot_S512x3072_S1024x3072_S512x1024_1_1_0_0_n_n.rhsIdx j u 1).val = (u ⟨0, by decide⟩).val :=
  dot_S512x3072_S1024x3072_S512x1024_1_1_0_0_n_n.rhsIdx_val_of_single rfl j u

/-- The output payload at (p, q): ∑ₖ a[p, k] · b[q, k]. -/
theorem pay2_apply (v3 : FVec Ideal S512x3072 .bf16) (v4 : FVec Ideal S1024x3072 .bf16) (p : Fin 512) (q : Fin 1024) :
    (k0_pay2 (F := Ideal) v3 v4 (ix2 p q) : EReal) = ∑ k : Fin 3072, v3 (ix2 p k) * v4 (ix2 q k) := by
  unfold k0_pay2
  simp only [shapeCast_self]
  refine (Ideal.matmul_constant_zero_apply (φ₁ := .bf16) (φ₂ := .bf16)
    dot_S512x3072_S1024x3072_S512x1024_1_1_0_0_n_n none v3 v4 (ix2 p q)).trans ?_
  rw [← Equiv.sum_comp (contrEquiv1 dot_S512x3072_S1024x3072_S512x1024_1_1_0_0_n_n 3072 rfl rfl).symm]
  refine Finset.sum_congr rfl fun k _ => ?_
  have hk := contrEquiv1_symm_val dot_S512x3072_S1024x3072_S512x1024_1_1_0_0_n_n 3072 rfl rfl k
  have el : dot_S512x3072_S1024x3072_S512x1024_1_1_0_0_n_n.lhsIdx (ix2 p q)
      ((contrEquiv1 dot_S512x3072_S1024x3072_S512x1024_1_1_0_0_n_n 3072 rfl rfl).symm k) = ix2 p k :=
    funext fun a => Fin.ext (by
      match a with
      | ⟨0, _⟩ => exact lhs_0 _ _
      | ⟨1, _⟩ => exact (lhs_1 _ _).trans hk)
  have er : dot_S512x3072_S1024x3072_S512x1024_1_1_0_0_n_n.rhsIdx (ix2 p q)
      ((contrEquiv1 dot_S512x3072_S1024x3072_S512x1024_1_1_0_0_n_n 3072 rfl rfl).symm k) = ix2 q k :=
    funext fun a => Fin.ext (by
      match a with
      | ⟨0, _⟩ => exact rhs_0 _ _
      | ⟨1, _⟩ => exact (rhs_1 _ _).trans hk)
  rw [el, er]

end Cert.KernelIdeal.Payload

end
-- ==== Proof.KernelPoints.lean ====
/-
  What the scratch and the output block hold after each grid point, by induction along the grid order.

  Points run t = 6·i + j with j fastest. At j = 0 the body writes the rounded row tile i of X into the scratch; at
  j > 0 it leaves the scratch alone, and the point before has the same i — so after EVERY point t the scratch holds
  the rounded row tile t / 6 of X. Hence at every point, first of its row or not, the output block is the product
  of that rounded row tile with row tile t % 6 of the weight; over the exact reals its entry (p, q) is
  ∑ₖ X[512·i + p, k] · W[1024·j + q, k]: the block (i, j) of the layer's matrix form.
-/
import proofs.«101231_j46617575031313_2_alg».proof.Proof.KernelBody
import proofs.«101231_j46617575031313_2_alg».proof.Proof.KernelBlocks
import proofs.«101231_j46617575031313_2_alg».proof.Proof.KernelPayload
import proofs.«101231_j46617575031313_2_alg».proof.Proof.Spec

noncomputable section

open Idealize.ShloMosaic Idealize.ShloMosaic.TcCoe Idealize.SL.Sem Idealize.ShloMosaic.ValueIdx

namespace Cert.KernelIdeal.Points

open Cert.KernelIdeal Cert.KernelIdeal.Gen Cert.KernelIdeal.Blocks

variable {F : FTy → Type} [FloatOps F]
variable (m : (ℓ : Loc nD τ sig) → Buf (Elt F) ℓ)

/-! ## One point, by its case -/

/-- At the first point of a row of tiles the scratch takes the rounded X block. -/
theorem scratch_first (c : Dev nD) (t : Fin cfg0.N) (h0 : t.val % 6 = 0) :
    (outsAt0 m c t.val t.isLt).2 = k0_pay1 (iblk m c 0 t) := by
  rw [outsAt0_A m c t h0]
  dsimp only
  exact Body.scratch_A c (grid0.coords t) (ms0_0 t) (hs0_0 t) (ms0_1 t) (hs0_1 t) (ms0_2 t) (hs0_2 t) scM0_0
    (Memref.isWhole_whole _) ((hcond0_0 t).mpr h0) (iblk m c 0 t) (iblk m c 1 t)

/-- At any other point the scratch keeps what the point before left. -/
theorem scratch_later (c : Dev nD) (t : Fin cfg0.N) (h0 : ¬t.val % 6 = 0) :
    (outsAt0 m c t.val t.isLt).2 = (outsAt0 m c (t.val - 1) (Nat.lt_of_le_of_lt (Nat.sub_le _ _) t.isLt)).2 := by
  rw [outsAt0_B m c t h0]
  rfl

/-- At the first point of a row of tiles the output block is the rounded X block times the weight block. -/
theorem out_first (c : Dev nD) (t : Fin cfg0.N) (h0 : t.val % 6 = 0) :
    (outsAt0 m c t.val t.isLt).1 = k0_pay2 (k0_pay1 (iblk m c 0 t)) (iblk m c 1 t) := by
  rw [outsAt0_A m c t h0]
  dsimp only
  exact Body.out_A c (grid0.coords t) (ms0_0 t) (hs0_0 t) (ms0_1 t) (hs0_1 t) (ms0_2 t) (hs0_2 t) scM0_0
    (Memref.isWhole_whole _) ((hcond0_0 t).mpr h0) (iblk m c 0 t) (iblk m c 1 t)

/-- At any other point it is the scratch as the point before left it times the weight block. -/
theorem out_later (c : Dev nD) (t : Fin cfg0.N) (h0 : ¬t.val % 6 = 0) :
    (outsAt0 m c t.val t.isLt).1
      = k0_pay2 (outsAt0 m c (t.val - 1) (Nat.lt_of_le_of_lt (Nat.sub_le _ _) t.isLt)).2 (iblk m c 1 t) := by
  rw [outsAt0_B m c t h0]
  dsimp only
  exact Body.out_B c (grid0.coords t) (ms0_0 t) (hs0_0 t) (ms0_1 t) (hs0_1 t) (ms0_2 t) (hs0_2 t) scM0_0
    (Memref.isWhole_whole _) (fun h => h0 ((hcond0_0 t).mp h)) (iblk m c 0 t) (iblk m c 1 t)
    (outsAt0 m c (t.val - 1) (Nat.lt_of_le_of_lt (Nat.sub_le _ _) t.isLt)).2

/-! ## Along the grid -/

/-- After every point n the scratch holds the rounded row tile n / 6 of X. -/
theorem scratch_eq (c : Dev nD) : ∀ (n : ℕ) (hn : n < cfg0.N),
    (outsAt0 m c n hn).2 = k0_pay1 (xRows (V m c main_v6) (rowTile ⟨n, hn⟩))
  | 0, hn => (scratch_first m c ⟨0, hn⟩ (Nat.zero_mod 6)).trans (congrArg (k0_pay1 (F := F)) (iblk0_eq m c ⟨0, hn⟩))
  | n + 1, hn => by
    by_cases h0 : (n + 1) % 6 = 0
    · exact (scratch_first m c ⟨n + 1, hn⟩ h0).trans (congrArg (k0_pay1 (F := F)) (iblk0_eq m c ⟨n + 1, hn⟩))
    · refine (scratch_later m c ⟨n + 1, hn⟩ h0).trans ?_
      have e : rowTile ⟨n, Nat.lt_of_succ_lt hn⟩ = rowTile ⟨n + 1, hn⟩ :=
        Fin.ext (by show n / 6 = (n + 1) / 6; omega)
      rw [← e]
      exact scratch_eq c n (Nat.lt_of_succ_lt hn)

/-- At every point t the output block is the rounded row tile t / 6 of X times row tile t % 6 of the weight. -/
theorem out_eq (c : Dev nD) (t : Fin cfg0.N) :
    (outsAt0 m c t.val t.isLt).1
      = k0_pay2 (k0_pay1 (xRows (V m c main_v6) (rowTile t))) (wRows (V m c main_v5) (colTile t)) := by
  by_cases h0 : t.val % 6 = 0
  · refine (out_first m c t h0).trans ?_
    rw [iblk0_eq, iblk1_eq]
  · refine (out_later m c t h0).trans ?_
    have hpos : 0 < t.val := Nat.pos_of_ne_zero fun h => h0 (by rw [h])
    have e : rowTile ⟨t.val - 1, Nat.lt_of_le_of_lt (Nat.sub_le _ _) t.isLt⟩ = rowTile t :=
      Fin.ext (by show (t.val - 1) / 6 = t.val / 6; omega)
    rw [scratch_eq m c (t.val - 1) _, e, iblk1_eq]

/-! ## Over the exact reals: the block of the layer's matrix form -/

/-- The product of a rounded row tile of X with a row tile of W, entry by entry, is the block (i, j) of
    Y[r, n] = ∑ₖ X[r, k] · W[n, k]. -/
theorem product_eq_tile (X : S8192x3072.Idx → Elt Ideal .f32) (W : S6144x3072.Idx → Elt Ideal .bf16) (i : Fin 16) (j : Fin 6) :
    k0_pay2 (F := Ideal) (k0_pay1 (F := Ideal) (xRows X i)) (wRows W j) = tile (Cert.Spec.rowsLinear X W) i j := by
  funext y
  obtain ⟨p, q, rfl⟩ : ∃ (p : Fin 512) (q : Fin 1024), y = ix2 p q := ⟨y 0, y 1, eq_ix2 y⟩
  refine (Payload.pay2_apply _ _ p q).trans ?_
  unfold tile Cert.Spec.rowsLinear
  refine Finset.sum_congr rfl fun k _ => ?_
  rw [Payload.pay1_apply]
  rfl

end Cert.KernelIdeal.Points

end
-- ==== Proof.KernelHost.lean ====
/-
  The host operations around the kernel's region. Before it: x [4, 2048, 3072] is re-laid as the matrix X
  [8192, 3072]; the weight is re-laid in 128 × 128 blocks, each block multiplied by its scale, re-laid back to
  [6144, 3072] and rounded to the matmul's operand format. After it: the region's output array [8192, 6144] is
  re-laid as the result [4, 2048, 6144]. Each lemma reads one buffer as that composition of the arguments.
-/
import proofs.«101231_j46617575031313_2_alg».proof.Proof.Gen.KernelIdeal.Frame
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem
open Idealize.ShloMosaic.Pipeline (Dat)

namespace Cert.KernelIdeal.Host

open Cert.KernelIdeal Cert.KernelIdeal.Gen

variable {F : FTy → Type} [FloatOps F]
variable (m : (ℓ : Loc nD τ sig) → Buf (Elt F) ℓ)

/-- X as the region finds it: x re-laid as 8192 rows. -/
theorem V_x (c : Dev nD) :
    (V m c main_v6 : S8192x3072.Idx → Elt F .f32)
      = shapeCast S8192x3072 (m ((c : Thread nD τ).loc main_arg0)) shapeCasts_S4x2048x3072_S8192x3072 := by
  show StableHlo.after hostOps0 (fun b => m (c, b)) (Proc.devRef .tc main_v6) = _
  after_results
  rfl

/-- The weight as the region finds it: re-laid in blocks, scaled block by block, re-laid back, rounded. -/
theorem V_w (c : Dev nD) :
    (V m c main_v5 : S6144x3072.Idx → Elt F .bf16)
      = truncf .bf16 (shapeCast S6144x3072 (mulf (shapeCast S48x128x24x128 (m ((c : Thread nD τ).loc main_arg1)) shapeCasts_S6144x3072_S48x128x24x128)
          (broadcastInDim S48x128x24x128 ![0, 1, 2, 3] bcast_S48x1x24x1_S48x128x24x128_0_1_2_3
            (broadcastInDim S48x1x24x1 ![0, 2] bcast_S48x24_S48x1x24x1_0_2 (m ((c : Thread nD τ).loc main_arg2)))))
          shapeCasts_S48x128x24x128_S6144x3072) bitsLt_bf16_f32 := by
  show StableHlo.after hostOps0 (fun b => m (c, b)) (Proc.devRef .tc main_v5) = _
  after_results
  rfl

/-- The program's result: the output array as the region leaves it, re-laid as [4, 2048, 6144]. -/
theorem tail_eq (c : Dev nD) :
    Pipeline.afterTail₀ cfgs (dats m) 0 (V0 m) [hostOps1] c main_v8
      = shapeCast S4x2048x6144 ((dats m 0 c).arrAt 2 cfg0.N) shapeCasts_S8192x6144_S4x2048x6144 := by
  unfold Pipeline.afterTail₀
  show StableHlo.after hostOps1 _ (Proc.devRef .tc main_v8) = _
  after_results
  have e := Pipeline.withArrays_arr (τ := τ) (Val := Elt F) spec0 launch0.win.arr_inj c (V0 m c)
    (fun w => (dats m 0 c).arrAt w cfg0.N) 2
  exact congrArg (fun A => shapeCast S4x2048x6144 A shapeCasts_S8192x6144_S4x2048x6144) e

end Cert.KernelIdeal.Host

end
-- ==== Proof.KernelValue.lean ====
/-
  The kernel's result over the exact reals.

  Every grid point writes back its output block, the block (i, j) of Y[r, n] = ∑ₖ X[r, k] · W[n, k] with X and W
  the two arrays the region is given; the blocks tile the output array, so after the region it holds Y. The one
  host operation after the region re-lays Y as [4, 2048, 6144], and X is x re-laid as rows: the program's result
  is out[b, s, n] = ∑ₖ x[b, s, k] · W[n, k], the linear layer of x and the region's weight operand.
-/
import proofs.«101231_j46617575031313_2_alg».proof.Proof.KernelPoints
import proofs.«101231_j46617575031313_2_alg».proof.Proof.KernelHost

noncomputable section

open Idealize.ShloMosaic Idealize.ShloMosaic.TcCoe Idealize.SL.Sem Idealize.ShloMosaic.ValueIdx
open Idealize.ShloMosaic.Pipeline (Dat)

namespace Cert.KernelIdeal.Result

open Cert.KernelIdeal Cert.KernelIdeal.Gen Cert.KernelIdeal.Blocks

variable (m : (ℓ : Loc nD τ sig) → Buf (Elt Ideal) ℓ) (ρ : Dev nD → PrngReg)

/-- What point t writes back is the block of the layer's matrix form that the output window names at t. -/
theorem flushed_eq (c : Dev nD) (t : Fin cfg0.N) :
    (dats m 0 c).flushed 2 t
      = ((cfg0.win 2).blk t).view.read (Elt Ideal) (Cert.Spec.rowsLinear (V m c main_v6) (V m c main_v5)) := by
  show (cfg0.win 2).cut (grid0.coords t) ((dats m 0 c).after 2 t) = _
  rw [after0_2]
  refine (Points.out_eq m c t).trans ?_
  refine (Points.product_eq_tile (V m c main_v6) (V m c main_v5) (rowTile t) (colTile t)).trans ?_
  exact (blk2_read (F := Ideal) c t (Cert.Spec.rowsLinear (V m c main_v6) (V m c main_v5))).symm

/-- The output array after the region: the layer's matrix form of the region's two operands. -/
theorem final (c : Dev nD) :
    (dats m 0 c).arrAt 2 cfg0.N = Cert.Spec.rowsLinear (V m c main_v6) (V m c main_v5) :=
  (dats m 0 c).arrAt_eq_of_cover 2 _ (fun t _ => flushed_eq m c t) cover2

/-- The program's result buffer after the run: the linear layer of x and the region's weight operand. -/
theorem result_eq (c : Dev nD) :
    Pipeline.afterTail₀ cfgs (dats m) 0 (V0 m) [hostOps1] c main_v8
      = Cert.Spec.linear (m ((c : Thread nD τ).loc main_arg0)) (V m c main_v5) := by
  rw [Host.tail_eq, final, Host.V_x]
  exact Cert.Spec.reshape_rowsLinear _ _ _ _

/-- The run, read: the result at the linear layer, the three arguments unchanged. -/
theorem run : θ_run defs (onTc (τ := τ) (main (F := Ideal))) ⟨m, fun _ => 0, ρ⟩ fun r => ∀ c : Dev nD,
      r.2.mem ((c.tc : Thread nD τ).loc main_v8) = Cert.Spec.linear (m ((c : Thread nD τ).loc main_arg0)) (V m c main_v5)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v8 (Pipeline.mem_restRefs_of main_v8 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.Result

end
-- ==== Proof.lean ====
/-
  A blockwise-dequantized linear layer: out[b, s, n] = ∑ₖ x[b, s, k] · W'[n, k], where W' is the weight with each
  128 × 128 block multiplied by its own scale, W'[n, k] = w[n, k] · scale[n / 128, k / 128].

  Both programs form W' on the host by the same operations (re-lay in blocks, multiply by the repeated scales,
  re-lay back), so the comparison carries it as one term. The kernel then rounds W' and x to the matmul's operand
  format — the identity over the exact reals —, lays x out as 8192 rows and computes the product tile by tile over
  a 16 × 6 grid of (512-row, 1024-column) blocks, keeping the current row tile of x in a scratch buffer that is
  rewritten only at the first column tile of each row of tiles; the reference is one dot_general contracting the
  last axes of x and W'. Over the exact reals every output entry is on both sides the one sum ∑ₖ over the 3072
  values of k, in one order, of the same products, so the two results are equal entry by entry with no use of the
  inputs' finiteness.

  The modules: Spec (the layer and its matrix form), RefRead (the reference is the layer; W' entry by entry),
  KernelBody and KernelPayload (what one run of the body leaves; its payloads entry by entry), KernelBlocks (the
  grid's blocks and their cover of the output), KernelPoints (the scratch and the output block after every point,
  by induction along the grid), KernelHost (the host operations around the region), KernelValue (the kernel's
  result is the layer). The three frames are the generated ones (the reference's is its generated run with the
  result dropped), and the idealization rewrote nothing.
-/
import proofs.«101231_j46617575031313_2_alg».proof.Defs
import proofs.«101231_j46617575031313_2_alg».proof.Proof.Gen.Kernel
import proofs.«101231_j46617575031313_2_alg».proof.Proof.Gen.Kernel.Skeleton
import proofs.«101231_j46617575031313_2_alg».proof.Proof.Gen.Kernel.Launch
import proofs.«101231_j46617575031313_2_alg».proof.Proof.Gen.Kernel.Points
import proofs.«101231_j46617575031313_2_alg».proof.Proof.Gen.Kernel.Frame
import proofs.«101231_j46617575031313_2_alg».proof.Proof.Gen.KernelIdeal
import proofs.«101231_j46617575031313_2_alg».proof.Proof.Gen.KernelIdeal.Skeleton
import proofs.«101231_j46617575031313_2_alg».proof.Proof.Gen.KernelIdeal.Launch
import proofs.«101231_j46617575031313_2_alg».proof.Proof.Gen.KernelIdeal.Points
import proofs.«101231_j46617575031313_2_alg».proof.Proof.Gen.KernelIdeal.Frame
import proofs.«101231_j46617575031313_2_alg».proof.Proof.Gen.ReferenceIdeal
import proofs.«101231_j46617575031313_2_alg».proof.Proof.Gen.ReferenceIdeal.Run
import proofs.«101231_j46617575031313_2_alg».proof.Proof.Gen.ReferenceIdeal.Read
import proofs.«101231_j46617575031313_2_alg».proof.Proof.Gen.Pre_finite_inputs
import proofs.«101231_j46617575031313_2_alg».proof.Proof.RefRead
import proofs.«101231_j46617575031313_2_alg».proof.Proof.KernelValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation of the kernel. -/
theorem preserves : Cert.preserves_Kernel_KernelIdeal := trivial

/-- The weight operand the kernel's region is given is the reference's dequantized weight: the same host operations
    of the same two arguments, followed by a rounding that is the identity over the exact reals. -/
theorem weight_eq (m : (ℓ : Loc Cert.KernelIdeal.nD Cert.KernelIdeal.τ Cert.KernelIdeal.sig) → Buf (Elt Ideal) ℓ)
    (c : Dev Cert.KernelIdeal.nD) :
    Cert.ReferenceIdeal.Read.val_main_v4 (F := Ideal)
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
      = Cert.KernelIdeal.Gen.V m c Cert.KernelIdeal.main_v5 := by
  rw [Cert.KernelIdeal.Host.V_w]
  rfl

/-- From memories that agree on the three arguments both programs end with the linear layer of x and the
    dequantized weight in their result buffers, and with the arguments unchanged. -/
theorem algebraic : Cert.algebraic_KernelIdeal_ReferenceIdeal := by
  intro m ρ m' ρ' _ hagree
  refine ⟨fun c => Cert.Spec.linear
      (m ((c.tc : Thread Cert.KernelIdeal.nD Cert.KernelIdeal.τ).loc Cert.KernelIdeal.main_arg0))
      (Cert.KernelIdeal.Gen.V m c Cert.KernelIdeal.main_v5), Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v5_eq, Cert.RefRead.reference_eq, (hagree c).1, (hagree c).2.1, (hagree c).2.2,
    weight_eq]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
